-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1024x128, .f32⟩
  | .local _ .vmem, ⟨5, _⟩ => ⟨S1x1024x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  bitsLt_bf16_f32 : FTy.bits .bf16 < FTy.bits .f32
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x2048x128.size a
  hwx0_0 : ∀ i : grid0.Coords, EltTy.bits .f32 = 32 ∨ (Rect.block (s := S8x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x2048x128.size a
  hwx0_2 : ∀ i : grid0.Coords, EltTy.bits .f32 = 32 ∨ (Rect.block (s := S8x2048x128) S1x1024x128.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«104972_j31997506355478_2_alg».proof.Proof.LibMinMaxInf
import proofs.«104972_j31997506355478_2_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.AttnSpec.lean ====
/-
  Softmax attention whose keys are its values, one query row at a time, on the extended reals.

  For a query row `x` (a vector of `D` numbers) and `L` key rows `K k` the scores are the inner products
  `s k = ∑ d, x d · K k d`; the weights are the softmax of the scores in its shifted form,
  `w k = exp (s k − max s) / ∑ k', exp (s k' − max s)` — the maximum is the supremum of the finite family, the quotient
  the extended reals' division —; and the context row is `∑ k, w k · K k d`.  Row `(b, i)` of the result of a batched
  array `[B, L, D]` of queries against the array `[B, L, D]` of keys depends on query row `(b, i)` and on all the key
  rows of batch `b`, and on nothing else.
-/
import proofs.«104972_j31997506355478_2_alg».proof.Proof.LibSoftmaxRows

noncomputable section

namespace Cert.Attention

open Idealize.ShloMosaic Idealize.ShloMosaic.ValueIdx Cert.Lib.SoftmaxRows
open scoped BigOperators

variable {L D : ℕ}

/-- The score of key row `k`: the inner product of the query row with it. -/
def score (x : Fin D → EReal) (K : Fin L → Fin D → EReal) (k : Fin L) : EReal :=
  ∑ d : Fin D, x d * K k d

/-- The context row: the key rows averaged with the softmax of their scores. -/
def attnRow (x : Fin D → EReal) (K : Fin L → Fin D → EReal) (d : Fin D) : EReal :=
  ∑ k : Fin L, softmaxRow (score x K) k * K k d

/-- The shape of the three arrays. -/
abbrev Arr : Shape := ⟨3, ![8, 2048, 128]⟩

/-- The whole result: entry `(b, i, d)` is the context row of query row `(b, i)` against batch `b`'s keys, at `d`. -/
def attn (q v : Arr.Idx → EReal) : Arr.Idx → EReal :=
  fun j => attnRow (fun d => q (ix3 (j 0) (j 1) d)) (fun k d => v (ix3 (j 0) k d)) (j 2)

theorem attn_ix3 (q v : Arr.Idx → EReal) (b : Fin 8) (i : Fin 2048) (d : Fin 128) :
    attn q v (ix3 b i d) = attnRow (fun d' => q (ix3 b i d')) (fun k d' => v (ix3 b k d')) d := rfl

end Cert.Attention

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.Payload.lean ====
/-
  What the kernel body stores, read at an index at the ideal values.

  The body loads a tile of 1024 query rows and the 2048 key rows of the tile's batch, both with a leading unit axis, and
  stores one tile of 1024 context rows.  Its arithmetic: the scores as the product of the query tile with the transposed
  key tile into a zero accumulator; the softmax of each score row (lane maximum, shift, exponential, lane sum, quotient);
  and the product of the weights with the key tile into a zero accumulator — the changes of float format on the way into
  that product are the identity on the extended reals.  So entry `(0, r, d)` of the stored tile is the context row of query
  row `r` of the tile against the loaded keys, at `d`.
-/
import proofs.«104972_j31997506355478_2_alg».proof.Proof.Gen.KernelIdeal.Skeleton
import proofs.«104972_j31997506355478_2_alg».proof.Proof.AttnSpec
import proofs.«104972_j31997506355478_2_alg».proof.Proof.LibDense
import proofs.«104972_j31997506355478_2_alg».proof.Proof.LibDenseNT
import Idealize.ShloMosaic.Lib.ValueLayout

noncomputable section

namespace Cert.KernelIdeal.Hand

open Cert.KernelIdeal Cert.KernelIdeal.Gen
open Idealize.ShloMosaic Idealize.ShloMosaic.ValueIdx Cert.Attention Cert.Lib.SoftmaxRows
open Facts₀ Facts
open scoped BigOperators

/-- Entry `(u, r, d)` of the stored tile: the context row of the tile's query row `r` against the loaded keys, at `d`. -/
theorem payload_at (x0 : Vec Ideal S1x1024x128 .f32) (x1 : Vec Ideal S1x2048x128 .f32)
    (u : Fin 1) (r : Fin 1024) (d : Fin 128) :
    k0_pay1 (F := Ideal) x0 x1 (ix3 u r d)
      = attnRow (fun d' => x0 (ix3 (0 : Fin 1) r d')) (fun k d' => x1 (ix3 (0 : Fin 1) k d')) d := by
  unfold k0_pay1
  dsimp only
  refine (shapeCast_ab_1ab_apply _ _ u r d).trans ?_
  refine (Cert.Lib.Dense.matmul_zero_at dot_S1024x2048_S2048x128_S1024x128_1_0_0_1_n_n rfl rfl rfl rfl rfl rfl _ _ r d).trans ?_
  unfold Cert.Lib.Dense.rowDot attnRow
  refine Finset.sum_congr rfl fun k _ => ?_
  refine congrArg₂ (· * ·) ?_ ?_
  · refine (softmax_apply _ Facts₀.reduces_S1024x2048_S1024 Facts₀.shapeCasts_S1024_S1024x1
      Facts₀.broadcasts_S1024x1_S1024x2048 (.inl rfl) rfl rfl r k).trans ?_
    refine congrArg (fun s => softmaxRow s k) (funext fun k' => ?_)
    refine (Cert.Lib.DenseNT.matmul_zero_at dot_S1024x128_S2048x128_S1024x2048_1_1_0_0_n_n rfl rfl rfl rfl rfl rfl
      (some .fp32) _ _ r k').trans ?_
    unfold Cert.Lib.DenseNT.rowRowDot score
    refine Finset.sum_congr rfl fun d' _ => congrArg₂ (· * ·) ?_ ?_
    · exact shapeCast_1ab_ab_apply x0 _ r d'
    · exact shapeCast_1ab_ab_apply x1 _ k' d'
  · exact shapeCast_1ab_ab_apply x1 _ k d

end Cert.KernelIdeal.Hand

end
-- ==== Proof.Blocks.lean ====
/-
  From tiles to the whole array: what the kernel's result array holds after the run.

  The grid has sixteen points, `(b, h)` for a batch `b < 8` and a half `h < 2` of the 2048 query rows.  At the point `(b, h)`
  the query window's block is rows `1024·h … 1024·h + 1023` of batch `b`, the key window's block is all 2048 rows of batch
  `b`, and the result window's block is rows `1024·h … 1024·h + 1023` of batch `b` of the result.  A context row depends
  only on its own query row and on the keys of its batch, so the tile a point writes back is that block of softmax
  attention of the two whole argument arrays; the sixteen blocks tile the result array (row `i` of batch `b` lies in the
  block of the point `(b, i / 1024)`), so the array ends holding softmax attention of the arguments.
-/
import proofs.«104972_j31997506355478_2_alg».proof.Proof.Gen.KernelIdeal.Value
import proofs.«104972_j31997506355478_2_alg».proof.Proof.Payload

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx Cert.Attention
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The three index maps, decided over the sixteen grid points: the query window moves with the result window, the key
    window follows its batch and stays at row block 0, no window moves along the feature axis. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 8 ∧ win0_2.index t (1 : Fin 3) < 2 ∧ win0_2.index t (2 : Fin 3) = 0 :=
  (by decide +kernel : ∀ t : Fin grid0.N, _)

/-- Every block `(b, h, 0)` of the result array is some point's. -/
theorem idx_onto : ∀ (b : Fin 8) (h : Fin 2), ∃ t : Fin cfg0.N, win0_2.index t = ![b.val, h.val, 0] :=
  (by decide +kernel : ∀ (b : Fin 8) (h : Fin 2), ∃ t : Fin grid0.N, win0_2.index t = ![b.val, h.val, 0])

/-- The query window's block at point `t`, entry `(0, r, d)`: the query array at the result block's batch, row
    `1024 · (the block's row index) + r`, feature `d`. -/
theorem qblk_apply (c : Dev nD) (t : Fin cfg0.N) (r : Fin 1024) (d : Fin 128) (k : S8x2048x128.Idx)
    (hk0 : (k 0).val = win0_2.index t (0 : Fin 3)) (hk1 : (k 1).val = win0_2.index t (1 : Fin 3) * 1024 + r.val)
    (hk2 : (k 2).val = d.val) :
    (iblk m c 0 t : Vec Ideal S1x1024x128 .f32) (ix3 (0 : Fin 1) r d)
      = (m ((c : Thread nD τ).loc main_arg0) : S8x2048x128.Idx → Elt Ideal .f32) k := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = (k 0).val; rw [hk0, e0]; omega
  | ⟨1, _⟩ => show win0_0.index t (1 : Fin 3) * 1024 + 1 * r.val = (k 1).val; rw [hk1, e1]; omega
  | ⟨2, _⟩ => show win0_0.index t (2 : Fin 3) * 128 + 1 * d.val = (k 2).val; rw [hk2, e2]; omega

/-- The key window's block at point `t`, entry `(0, r, d)`: the key array at the result block's batch, row `r`, feature `d`. -/
theorem kblk_apply (c : Dev nD) (t : Fin cfg0.N) (r : Fin 2048) (d : Fin 128) (k : S8x2048x128.Idx)
    (hk0 : (k 0).val = win0_2.index t (0 : Fin 3)) (hk1 : (k 1).val = r.val) (hk2 : (k 2).val = d.val) :
    (iblk m c 1 t : Vec Ideal S1x2048x128 .f32) (ix3 (0 : Fin 1) r d)
      = (m ((c : Thread nD τ).loc main_arg1) : S8x2048x128.Idx → Elt Ideal .f32) k := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = (k 0).val; rw [hk0, e0]; omega
  | ⟨1, _⟩ => show win0_1.index t (1 : Fin 3) * 2048 + 1 * r.val = (k 1).val; rw [hk1, e1]; omega
  | ⟨2, _⟩ => show win0_1.index t (2 : Fin 3) * 128 + 1 * d.val = (k 2).val; rw [hk2, e2]; omega

/-- A stored tile is a block of softmax attention of two whole arrays, as soon as the loaded query tile is rows
    `1024·h …` of batch `b` of the first and the loaded key tile is batch `b` of the second. -/
theorem tile_eq (x0 : Vec Ideal S1x1024x128 .f32) (x1 : Vec Ideal S1x2048x128 .f32) (Q Kv : Arr.Idx → EReal)
    (b : Fin 8) (h : Fin 2)
    (h0 : ∀ (r : Fin 1024) (d : Fin 128) (k : Arr.Idx), (k 0).val = b.val → (k 1).val = h.val * 1024 + r.val → (k 2).val = d.val →
      x0 (ix3 (0 : Fin 1) r d) = Q k)
    (h1 : ∀ (r : Fin 2048) (d : Fin 128) (k : Arr.Idx), (k 0).val = b.val → (k 1).val = r.val → (k 2).val = d.val →
      x1 (ix3 (0 : Fin 1) r d) = Kv k)
    (y : S1x1024x128.Idx) (i : Arr.Idx)
    (hi0 : (i 0).val = b.val) (hi1 : (i 1).val = h.val * 1024 + (y 1).val) (hi2 : (i 2).val = (y 2).val) :
    k0_pay1 (F := Ideal) x0 x1 y = attn Q Kv i := by
  obtain ⟨u, r, d, rfl⟩ : ∃ (u : Fin 1) (r : Fin 1024) (d : Fin 128), y = ix3 u r d := ⟨y 0, y 1, y 2, eq_ix3 y⟩
  obtain ⟨b', i', d', rfl⟩ : ∃ (b' : Fin 8) (i' : Fin 2048) (d' : Fin 128), i = ix3 b' i' d' := ⟨i 0, i 1, i 2, eq_ix3 i⟩
  have hb : b' = b := Fin.ext hi0
  have hd : d' = d := Fin.ext hi2
  subst hb hd
  have hi1' : i'.val = h.val * 1024 + r.val := hi1
  rw [payload_at, attn_ix3]
  refine congrArg₂ (fun x K => attnRow x K d') (funext fun e => ?_) (funext fun k => funext fun e => ?_)
  · exact h0 r e (ix3 b' i' e) rfl hi1' rfl
  · exact h1 k e (ix3 b' k e) rfl rfl rfl

/-- What point `t` writes back is block `t` of softmax attention of the argument arrays. -/
theorem flushed_eq (c : Dev nD) (t : Fin cfg0.N) :
    (dats m 0 c).flushed 2 t = ((cfg0.win 2).blk t).view.read (Elt Ideal)
      (attn (m ((c : Thread nD τ).loc main_arg0)) (m ((c : Thread nD τ).loc main_arg1))) := by
  rw [flushed2]
  unfold out0_2
  rw [View.canon_unit_zero hz]
  simp only [View.ld_unit_zero (S := S1x1024x128) hz, View.ld_unit_zero (S := S1x2048x128) hz]
  obtain ⟨-, -, -, -, -, -, l0, l1, e2⟩ := idx_facts t
  funext j
  have hj0 : (j 0).val < 1 := (j 0).isLt
  refine tile_eq (iblk m c 0 t) (iblk m c 1 t) _ _ ⟨win0_2.index t (0 : Fin 3), l0⟩ ⟨win0_2.index t (1 : Fin 3), l1⟩
    (fun r d k hk0 hk1 hk2 => qblk_apply m c t r d k hk0 hk1 hk2)
    (fun r d k hk0 hk1 hk2 => kblk_apply m c t r d k hk0 hk1 hk2) j (((cfg0.win 2).blk t).view.emb j) ?_ ?_ ?_
  · show win0_2.index t (0 : Fin 3) * 1 + 1 * (j 0).val = win0_2.index t (0 : Fin 3); omega
  · show win0_2.index t (1 : Fin 3) * 1024 + 1 * (j 1).val = win0_2.index t (1 : Fin 3) * 1024 + (j 1).val; omega
  · show win0_2.index t (2 : Fin 3) * 128 + 1 * (j 2).val = (j 2).val; omega

/-- An index of the result array is in point `t`'s block iff each coordinate is in the block's range on its axis. -/
theorem mem_blk (t : Fin cfg0.N) (i : S8x2048x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v0).slice (win0_2.rect t)).set ↔ _
  rw [View.set_slice_whole, Rect.mem_set_unit]
  exact Iff.rfl

/-- The sixteen blocks cover the result array: row `i` of batch `b` is in the block of the point `(b, i / 1024)`. -/
theorem cover (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The result array after the run is softmax attention of the argument arrays. -/
theorem final (c : Dev nD) : (dats m 0 c).arrAt 2 cfg0.N
    = attn (m ((c : Thread nD τ).loc main_arg0)) (m ((c : Thread nD τ).loc main_arg1)) :=
  (dats m 0 c).arrAt_eq_of_cover 2 (attn (m ((c : Thread nD τ).loc main_arg0)) (m ((c : Thread nD τ).loc main_arg1)))
    (fun t _ => flushed_eq m c t) cover

/-- The run, read: the result array at softmax attention of the arguments, the arguments unchanged. -/
theorem run : θ_run defs (onTc (τ := τ) (main (F := Ideal))) ⟨m, fun _ => 0, ρ⟩ fun r => ∀ c : Dev nD,
      r.2.mem ((c : Thread nD τ).loc main_v0) = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefIsAttn.lean ====
/-
  The reference computes softmax attention, read one operation at a time at the ideal values.

  Its thirteen host operations are: the batched product of the queries with the keys contracted along the feature axis
  (the scores), the row maximum from `-inf` (joined once more with `-inf`, which changes nothing), the exponentials of the
  shifted scores, their row sums from zero, the quotients, and the batched product of the weights with the keys.  Entry
  `(b, i, d)` of the result is therefore the context row of query row `(b, i)` against batch `b`'s keys, at `d`.
-/
import proofs.«104972_j31997506355478_2_alg».proof.Proof.Gen.ReferenceIdeal.Read
import proofs.«104972_j31997506355478_2_alg».proof.Proof.AttnSpec

noncomputable section

namespace Cert.ReferenceIdeal.RefValue

open Cert.ReferenceIdeal Cert.ReferenceIdeal.Gen Cert.ReferenceIdeal.Read
open Idealize.ShloMosaic Idealize.ShloMosaic.ValueIdx Cert.Attention Cert.Lib.SoftmaxRows
open scoped BigOperators

variable (x0 x1 : (⟨S8x2048x128, .f32⟩ : BufTy).Contents (Elt Ideal))

/-- The scores: query row `(b, i)` against key row `(b, k)`. -/
theorem scores_at (b : Fin 8) (i k : Fin 2048) :
    val_main_v0 (F := Ideal) x0 x1 (ix3 b i k)
      = score (fun d => x0 (ix3 b i d)) (fun k' d => x1 (ix3 b k' d)) k := by
  rw [val_main_v0_apply]
  unfold score
  refine Finset.sum_congr rfl fun d _ => ?_
  have el : lidx_main_v0 (ix3 b i k) d = ix3 b i d := funext fun a => Fin.ext (by
    match a with
    | ⟨0, _⟩ => rfl
    | ⟨1, _⟩ => rfl
    | ⟨2, _⟩ => rfl)
  have er : ridx_main_v0 (ix3 b i k) d = ix3 b k d := funext fun a => Fin.ext (by
    match a with
    | ⟨0, _⟩ => rfl
    | ⟨1, _⟩ => rfl
    | ⟨2, _⟩ => rfl)
  rw [el, er]

/-- The row maximum is the supremum of the row's scores: the reduction starts from `-inf`, and so does the join after it. -/
theorem max_at (b : Fin 8) (i : Fin 2048) :
    val_main_v3 (F := Ideal) x0 x1 (ix2 b i)
      = (Finset.univ : Finset (Fin 2048)).sup (score (fun d => x0 (ix3 b i d)) (fun k' d => x1 (ix3 b k' d))) := by
  rw [val_main_v3_apply, val_main_v2_apply, val_main_cst_0_apply]
  show max (Ideal.ofBits .f32 0xFF800000#32) (val_main_v1 (F := Ideal) x0 x1 (ix2 b i)) = _
  rw [Cert.Lib.MinMaxInf.ofBits_negInf_f32, max_bot_left]
  unfold val_main_v1
  refine (hostMaxLast3_apply (val_main_v0 (F := Ideal) x0 x1) (val_main_cst (F := Ideal)) reducesTo_S8x2048x2048_S8x2048_d2
    (by decide) h_S_ rfl b i).trans ?_
  exact Finset.sup_congr rfl fun k _ => scores_at x0 x1 b i k

/-- The exponential of a shifted score. -/
theorem exp_at (b : Fin 8) (i k : Fin 2048) :
    val_main_v7 (F := Ideal) x0 x1 (ix3 b i k)
      = Ideal.exp (score (fun d => x0 (ix3 b i d)) (fun k' d => x1 (ix3 b k' d)) k
          - (Finset.univ : Finset (Fin 2048)).sup (score (fun d => x0 (ix3 b i d)) (fun k' d => x1 (ix3 b k' d)))) := by
  rw [val_main_v7_apply, val_main_v6_apply, val_main_v5_apply, val_main_v4_apply]
  have e : idx_main_v4 (idx_main_v5 (ix3 b i k)) = ix2 b i := funext fun a => Fin.ext (by
    match a with
    | ⟨0, _⟩ => rfl
    | ⟨1, _⟩ => rfl)
  rw [e, max_at, scores_at]
  rfl

/-- The row sum of the exponentials, from zero. -/
theorem sum_at (b : Fin 8) (i : Fin 2048) :
    val_main_v8 (F := Ideal) x0 x1 (ix2 b i)
      = ∑ k : Fin 2048, Ideal.exp (score (fun d => x0 (ix3 b i d)) (fun k' d => x1 (ix3 b k' d)) k
          - (Finset.univ : Finset (Fin 2048)).sup (score (fun d => x0 (ix3 b i d)) (fun k' d => x1 (ix3 b k' d)))) := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 b i) k = ix3 b i k := funext fun a => Fin.ext (by
    match a with
    | ⟨0, _⟩ => rfl
    | ⟨1, _⟩ => rfl
    | ⟨2, _⟩ => rfl)
  rw [e, exp_at]

/-- The weights are the shifted softmax of the row's scores. -/
theorem weight_at (b : Fin 8) (i k : Fin 2048) :
    val_main_v11 (F := Ideal) x0 x1 (ix3 b i k)
      = softmaxRow (score (fun d => x0 (ix3 b i d)) (fun k' d => x1 (ix3 b k' d))) k := by
  rw [val_main_v11_apply, val_main_v10_apply, val_main_v9_apply]
  have e : idx_main_v9 (idx_main_v10 (ix3 b i k)) = ix2 b i := funext fun a => Fin.ext (by
    match a with
    | ⟨0, _⟩ => rfl
    | ⟨1, _⟩ => rfl)
  rw [e, sum_at, exp_at]
  rfl

/-- The reference's result is softmax attention of its two arguments. -/
theorem result_eq : val_main_v12 (F := Ideal) x0 x1 = attn x0 x1 := by
  funext j
  obtain ⟨b, i, d, rfl⟩ : ∃ (b : Fin 8) (i : Fin 2048) (d : Fin 128), j = ix3 b i d := ⟨j 0, j 1, j 2, eq_ix3 j⟩
  rw [val_main_v12_apply, attn_ix3]
  unfold attnRow
  refine Finset.sum_congr rfl fun k _ => ?_
  have el : lidx_main_v12 (ix3 b i d) k = ix3 b i k := funext fun a => Fin.ext (by
    match a with
    | ⟨0, _⟩ => rfl
    | ⟨1, _⟩ => rfl
    | ⟨2, _⟩ => rfl)
  have er : ridx_main_v12 (ix3 b i d) k = ix3 b k d := funext fun a => Fin.ext (by
    match a with
    | ⟨0, _⟩ => rfl
    | ⟨1, _⟩ => rfl
    | ⟨2, _⟩ => rfl)
  rw [el, er, weight_at]

end Cert.ReferenceIdeal.RefValue

end
-- ==== Proof.lean ====
/-
  The kernel — softmax attention with the keys used as values, computed tile by tile: 1024 query rows of one batch against
  that batch's 2048 key rows per grid point — against the plain batched reference: equal results on the extended reals.

  Both programs compute, for every batch `b`, query row `i` and feature `d`,
      ∑ k, softmax_k (∑ e, q(b,i,e) · v(b,k,e)) · v(b,k,d),
  the softmax in its shifted form (row maximum subtracted, exponential, divided by the row sum).  They differ only in what
  the extended reals do not see: the kernel's tiling of the query rows, its changes of float format on the way into the
  second product, the order in which sums and maxima are folded, and the reference's second join of the row maximum with
  `-inf`.  No algebraic law beyond the re-indexing of finite sums and suprema is used, so the precondition (finite inputs)
  is never opened.  The ideal pass rewrote nothing, so `preserves` is trivial; the three frames are the generated ones.
-/
import proofs.«104972_j31997506355478_2_alg».proof.Defs
import proofs.«104972_j31997506355478_2_alg».proof.Proof.Gen.Kernel
import proofs.«104972_j31997506355478_2_alg».proof.Proof.Gen.Kernel.Skeleton
import proofs.«104972_j31997506355478_2_alg».proof.Proof.Gen.Kernel.Launch
import proofs.«104972_j31997506355478_2_alg».proof.Proof.Gen.Kernel.Points
import proofs.«104972_j31997506355478_2_alg».proof.Proof.Gen.Kernel.Frame
import proofs.«104972_j31997506355478_2_alg».proof.Proof.Gen.KernelIdeal
import proofs.«104972_j31997506355478_2_alg».proof.Proof.Gen.KernelIdeal.Skeleton
import proofs.«104972_j31997506355478_2_alg».proof.Proof.Gen.KernelIdeal.Launch
import proofs.«104972_j31997506355478_2_alg».proof.Proof.Gen.KernelIdeal.Points
import proofs.«104972_j31997506355478_2_alg».proof.Proof.Gen.KernelIdeal.Frame
import proofs.«104972_j31997506355478_2_alg».proof.Proof.Gen.ReferenceIdeal
import proofs.«104972_j31997506355478_2_alg».proof.Proof.Gen.Pre_finite_inputs
import proofs.«104972_j31997506355478_2_alg».proof.Proof.Gen.KernelIdeal.Value
import proofs.«104972_j31997506355478_2_alg».proof.Proof.Gen.ReferenceIdeal.Run
import proofs.«104972_j31997506355478_2_alg».proof.Proof.Gen.ReferenceIdeal.Read
import proofs.«104972_j31997506355478_2_alg».proof.Proof.Blocks
import proofs.«104972_j31997506355478_2_alg».proof.Proof.RefIsAttn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both result arrays end at softmax attention of the (agreeing) argument arrays. -/
theorem algebraic : Cert.algebraic_KernelIdeal_ReferenceIdeal := by
  intro m ρ m' ρ' _ hagree
  refine ⟨fun c => Cert.Attention.attn (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
